-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result array named. The program is four stretches in order — the operations before
  the first launch, the first launch, the operations between the launches, the second launch — and the contents of every
  buffer at each boundary are known as a fold through them. Every weakly fair execution terminates without a fault in a
  state where each buffer that outlives the launches holds the last boundary's contents; read at the result array this
  names the result, and read at the arguments it says they are unchanged.
-/
import proofs.«107106_j76149770158505_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Layers

end
-- ==== Proof.SageSpec.lean ====
/-
  One layer of a graph convolution that mixes a node's own features with the mean of its neighbours' features, read
  entry by entry. Over 100000 nodes with 128 input channels, for node r and output channel c the layer's linear part is

      Σ_k x(r, k) · Wself(k, c)  +  Σ_k nb(r, k) · Wneigh(k, c)  +  bias(c),

  x the node features and nb the neighbour means. The hidden layer clamps this from below at zero; the output layer
  leaves it as it is. The sums are exact sums of extended reals, in this grouping: no entry is assumed finite, and two
  computations of the layer agree as soon as each forms these three terms in this order, however the nodes are tiled.
-/
import Idealize.ShloMosaic.PureOps.Ideal
import Idealize.ShloMosaic.Lib.ValueIdx

noncomputable section

namespace Sage

open Idealize.ShloMosaic Idealize.ShloMosaic.ValueIdx

variable {C : ℕ}

/-- The layer's linear part at node `r` and output channel `c`. -/
def mixAt (x nb : (⟨2, ![100000, 128]⟩ : Shape).Idx → EReal) (ws wn : (⟨2, ![128, C]⟩ : Shape).Idx → EReal)
    (bias : Fin C → EReal) (r : Fin 100000) (c : Fin C) : EReal :=
  ((∑ k : Fin 128, x (ix2 r k) * ws (ix2 k c)) + ∑ k : Fin 128, nb (ix2 r k) * wn (ix2 k c)) + bias c

/-- The output layer as an array over nodes and channels. -/
def mix (x nb : (⟨2, ![100000, 128]⟩ : Shape).Idx → EReal) (ws wn : (⟨2, ![128, C]⟩ : Shape).Idx → EReal)
    (bias : Fin C → EReal) : (⟨2, ![100000, C]⟩ : Shape).Idx → EReal :=
  fun i => mixAt x nb ws wn bias (i 0) (i 1)

/-- The hidden layer as an array: the linear part clamped from below at the value of the f32 zero word. -/
def mixRelu (x nb : (⟨2, ![100000, 128]⟩ : Shape).Idx → EReal) (ws wn : (⟨2, ![128, C]⟩ : Shape).Idx → EReal)
    (bias : Fin C → EReal) : (⟨2, ![100000, C]⟩ : Shape).Idx → EReal :=
  fun i => max (mixAt x nb ws wn bias (i 0) (i 1)) (Ideal.ofBits .f32 0x00000000#32)

theorem mix_ix2 (x nb : (⟨2, ![100000, 128]⟩ : Shape).Idx → EReal) (ws wn : (⟨2, ![128, C]⟩ : Shape).Idx → EReal)
    (bias : Fin C → EReal) (r : Fin 100000) (c : Fin C) : mix x nb ws wn bias (ix2 r c) = mixAt x nb ws wn bias r c := rfl

theorem mixRelu_ix2 (x nb : (⟨2, ![100000, 128]⟩ : Shape).Idx → EReal) (ws wn : (⟨2, ![128, C]⟩ : Shape).Idx → EReal)
    (bias : Fin C → EReal) (r : Fin 100000) (c : Fin C) :
    mixRelu x nb ws wn bias (ix2 r c) = max (mixAt x nb ws wn bias r c) (Ideal.ofBits .f32 0x00000000#32) := rfl

end Sage

end
-- ==== Proof.ReferenceLayers.lean ====
/-
  The reference's two layers, each read as the layer's function of its inputs. The reference forms, for the whole
  100000-node array at once, x·Wself + nb·Wneigh (two matrix products, each entry an exact sum over the 128 input
  channels), adds the bias copied into every row, and clamps the hidden layer at zero from below: at node r and
  channel c this is Σ_k x(r,k)·Wself(k,c) + Σ_k nb(r,k)·Wneigh(k,c) + bias(c), in this grouping. The neighbour means
  nb are carried as one function of a feature array and the two edge lists, never opened: the second layer applies
  that same function to the first layer's result.
-/
import proofs.«107106_j76149770158505_1_alg».proof.Proof.Gen.ReferenceIdeal.Read
import proofs.«107106_j76149770158505_1_alg».proof.Proof.SageSpec

noncomputable section

namespace Cert.ReferenceIdeal.Layers

open Idealize.ShloMosaic Idealize.ShloMosaic.ValueIdx Cert.ReferenceIdeal Cert.ReferenceIdeal.Read

/-- The neighbour means of a feature array along the edges, as the host operations compute them: a source index below
    zero is first shifted up by the node count; the features' rows at the sources are gathered, added up by destination
    node, and each node's sum is divided by the number of edges into the node, or by one where that number is below
    one. Carried as one function of the features and the two edge lists and never opened: whatever these operations do
    with an index outside the nodes, they do the same on both sides. -/
abbrev neighbourMeans (x : (⟨S100000x128, .f32⟩ : BufTy).Contents (Elt Ideal))
    (src dst : (⟨S1600000, .i32⟩ : BufTy).Contents (Elt Ideal)) : (⟨S100000x128, .f32⟩ : BufTy).Contents (Elt Ideal) :=
  val_main_v18 (F := Ideal) x src dst

/-- The reference's hidden layer is the layer's function of the features, their neighbour means, the first weights
    and the first bias. -/
theorem hidden_eq (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5
      = Sage.mixRelu (C := 128) x0 (neighbourMeans x0 x1 x2) x3 x4 (fun q => x5 (ix1 q)) := by
  funext i
  obtain ⟨r, c, rfl⟩ : ∃ (r : Fin 100000) (c : Fin 128), i = ix2 r c := ⟨i 0, i 1, eq_ix2 i⟩
  have l19 : ∀ k : Fin 128, lidx_main_v19 (ix2 r c) k = ix2 r k := fun k =>
    funext fun a => Fin.ext (by match a with | ⟨0, _⟩ => rfl | ⟨1, _⟩ => rfl)
  have r19 : ∀ k : Fin 128, ridx_main_v19 (ix2 r c) k = ix2 k c := fun k =>
    funext fun a => Fin.ext (by match a with | ⟨0, _⟩ => rfl | ⟨1, _⟩ => rfl)
  have l20 : ∀ k : Fin 128, lidx_main_v20 (ix2 r c) k = ix2 r k := fun k =>
    funext fun a => Fin.ext (by match a with | ⟨0, _⟩ => rfl | ⟨1, _⟩ => rfl)
  have r20 : ∀ k : Fin 128, ridx_main_v20 (ix2 r c) k = ix2 k c := fun k =>
    funext fun a => Fin.ext (by match a with | ⟨0, _⟩ => rfl | ⟨1, _⟩ => rfl)
  have b22 : idx_main_v22 (idx_main_v23 (ix2 r c)) = ix1 c :=
    funext fun a => Fin.ext (by match a with | ⟨0, _⟩ => rfl)
  rw [Sage.mixRelu_ix2, val_main_v25_apply, val_main_v24_apply, val_main_v21_apply, val_main_v19_apply,
    val_main_v20_apply, val_main_v23_apply, val_main_v22_apply, val_main_call0_v0_apply, val_main_call0_cst_apply]
  simp only [l19, r19, l20, r20, b22, Ideal.addf_def, Ideal.maximumf_def, Ideal.ofBits_def]
  rfl

/-- The reference's neighbour means of its hidden layer are the same function, of the hidden layer and the same two
    edge lists, as its neighbour means of the features. -/
theorem hidden_means_eq (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v44 (F := Ideal) x0 x1 x2 x3 x4 x5 = neighbourMeans (val_main_v25 (F := Ideal) x0 x1 x2 x3 x4 x5) x1 x2 := rfl

/-- The reference's result is the layer's function of the hidden layer, its neighbour means, the second weights and
    the second bias. -/
theorem output_eq (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x64, .f32⟩ : BufTy).Contents (Elt Ideal)) (x8 : (⟨S64, .f32⟩ : BufTy).Contents (Elt Ideal)) :
    val_main_v50 (F := Ideal) x0 x1 x2 x3 x4 x5 x6 x7 x8
      = Sage.mix (C := 64) (val_main_v25 (F := Ideal) x0 x1 x2 x3 x4 x5)
          (neighbourMeans (val_main_v25 (F := Ideal) x0 x1 x2 x3 x4 x5) x1 x2) x6 x7 (fun q => x8 (ix1 q)) := by
  funext i
  obtain ⟨r, c, rfl⟩ : ∃ (r : Fin 100000) (c : Fin 64), i = ix2 r c := ⟨i 0, i 1, eq_ix2 i⟩
  have l45 : ∀ k : Fin 128, lidx_main_v45 (ix2 r c) k = ix2 r k := fun k =>
    funext fun a => Fin.ext (by match a with | ⟨0, _⟩ => rfl | ⟨1, _⟩ => rfl)
  have r45 : ∀ k : Fin 128, ridx_main_v45 (ix2 r c) k = ix2 k c := fun k =>
    funext fun a => Fin.ext (by match a with | ⟨0, _⟩ => rfl | ⟨1, _⟩ => rfl)
  have l46 : ∀ k : Fin 128, lidx_main_v46 (ix2 r c) k = ix2 r k := fun k =>
    funext fun a => Fin.ext (by match a with | ⟨0, _⟩ => rfl | ⟨1, _⟩ => rfl)
  have r46 : ∀ k : Fin 128, ridx_main_v46 (ix2 r c) k = ix2 k c := fun k =>
    funext fun a => Fin.ext (by match a with | ⟨0, _⟩ => rfl | ⟨1, _⟩ => rfl)
  have b48 : idx_main_v48 (idx_main_v49 (ix2 r c)) = ix1 c :=
    funext fun a => Fin.ext (by match a with | ⟨0, _⟩ => rfl)
  rw [Sage.mix_ix2, val_main_v50_apply, val_main_v47_apply, val_main_v45_apply, val_main_v46_apply,
    val_main_v49_apply, val_main_v48_apply, hidden_means_eq]
  simp only [l45, r45, l46, r46, b48, Ideal.addf_def]
  rfl

end Cert.ReferenceIdeal.Layers

end
-- ==== Proof.FirstEntry.lean ====
/-
  What the first launch finds in the arrays it reads, in terms of the program's arguments. Before the launch the program
  only computes the neighbour means of the features along the two edge lists and views the bias vector as one row; it
  writes none of its arguments. So the launch finds the features and the two weight matrices as given, the neighbour
  means of the features, and a row whose entry c is the bias's entry c.
-/
import proofs.«107106_j76149770158505_1_alg».proof.Proof.Gen.KernelIdeal.Frame
import proofs.«107106_j76149770158505_1_alg».proof.Proof.ReferenceLayers
import Idealize.ShloMosaic.Lib.ValueLayout

noncomputable section

namespace Cert.KernelIdeal.Layers

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Layers (neighbourMeans)

variable (m : (ℓ : Loc nD τ sig) → Buf (Elt Ideal) ℓ) (ρ : Dev nD → PrngReg)

/-- The features are as given. -/
theorem first_features (c : Dev nD) :
    (V1 m ρ c main_arg0 : S100000x128.Idx → EReal) = m ((c.tc : Thread nD τ).loc main_arg0) := by
  show StableHlo.after hostOps0 (W0 m ρ c) (Proc.devRef .tc main_arg0) = _
  after_results <;> rfl

set_option maxHeartbeats 1000000 in
/-- The second operand holds the neighbour means of the features along the given edges. -/
theorem first_means (c : Dev nD) :
    (V1 m ρ c main_v18 : S100000x128.Idx → EReal)
      = neighbourMeans (m ((c.tc : Thread nD τ).loc main_arg0)) (m ((c.tc : Thread nD τ).loc main_arg1))
          (m ((c.tc : Thread nD τ).loc main_arg2)) := by
  show StableHlo.after hostOps0 (W0 m ρ c) (Proc.devRef .tc main_v18) = _
  after_results <;> rfl

/-- The first layer's two weight matrices are as given. -/
theorem first_wself (c : Dev nD) :
    (V1 m ρ c main_arg3 : S128x128.Idx → EReal) = m ((c.tc : Thread nD τ).loc main_arg3) := by
  show StableHlo.after hostOps0 (W0 m ρ c) (Proc.devRef .tc main_arg3) = _
  after_results <;> rfl

theorem first_wneigh (c : Dev nD) :
    (V1 m ρ c main_arg4 : S128x128.Idx → EReal) = m ((c.tc : Thread nD τ).loc main_arg4) := by
  show StableHlo.after hostOps0 (W0 m ρ c) (Proc.devRef .tc main_arg4) = _
  after_results <;> rfl

/-- The bias row's entry `q` is the first bias's entry `q`. -/
theorem first_bias (c : Dev nD) (q : Fin 128) :
    V1 m ρ c main_v19 (ix2 (0 : Fin 1) q) = m ((c.tc : Thread nD τ).loc main_arg5) (ix1 q) := by
  have e : (V1 m ρ c main_v19 : S1x128.Idx → EReal)
      = shapeCast S1x128 (m ((c.tc : Thread nD τ).loc main_arg5)) shapeCasts_S128_S1x128 := by
    show StableHlo.after hostOps0 (W0 m ρ c) (Proc.devRef .tc main_v19) = _
    after_results <;> rfl
  exact (congrFun e (ix2 (0 : Fin 1) q)).trans (shapeCast_a_1a_apply _ shapeCasts_S128_S1x128 (0 : Fin 1) q)

end Cert.KernelIdeal.Layers

end
-- ==== Proof.SecondEntry.lean ====
/-
  What the second launch finds in the arrays it reads. The first launch writes only its result array, and the
  operations between the two launches only compute the neighbour means of that result along the same two edge lists
  and view the second bias vector as one row. So the second launch finds the first launch's result, the neighbour means
  of that result, the second layer's two weight matrices as given, and a row whose entry c is the second bias's entry c.
-/
import proofs.«107106_j76149770158505_1_alg».proof.Proof.Gen.KernelIdeal.Frame
import proofs.«107106_j76149770158505_1_alg».proof.Proof.ReferenceLayers
import Idealize.ShloMosaic.Lib.ValueLayout

noncomputable section

namespace Cert.KernelIdeal.Layers

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Layers (neighbourMeans)

variable (m : (ℓ : Loc nD τ sig) → Buf (Elt Ideal) ℓ) (ρ : Dev nD → PrngReg)

/-! The arguments the second stretch reads are, after the first launch, still as given: the launch does not write
    them, and neither does anything before it. -/

theorem mid_src (c : Dev nD) :
    W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results <;> rfl

theorem mid_dst (c : Dev nD) :
    W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results <;> rfl

theorem mid_wself (c : Dev nD) :
    W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results <;> rfl

theorem mid_wneigh (c : Dev nD) :
    W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results <;> rfl

theorem mid_bias (c : Dev nD) :
    W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results <;> rfl

/-- The first operand is the first launch's result array. -/
theorem second_hidden (c : Dev nD) :
    (V3 m ρ c main_v20 : S100000x128.Idx → EReal) = (dat0 (V1 m ρ) c).arrAt 5 cfg0.N := by
  show StableHlo.after hostOps1 (W2 m ρ c) (Proc.devRef .tc main_v20) = _
  after_results
  exact W2_arr m ρ c 5

set_option maxHeartbeats 1000000 in
/-- The second operand holds the neighbour means of the first launch's result along the given edges. -/
theorem second_means (c : Dev nD) :
    (V3 m ρ c main_v39 : S100000x128.Idx → EReal)
      = neighbourMeans ((dat0 (V1 m ρ) c).arrAt 5 cfg0.N) (m ((c.tc : Thread nD τ).loc main_arg1))
          (m ((c.tc : Thread nD τ).loc main_arg2)) := by
  show StableHlo.after hostOps1 (W2 m ρ c) (Proc.devRef .tc main_v39) = _
  after_results
  rw [mid_src, mid_dst, show W2 m ρ c (Proc.devRef .tc main_v20) = (dat0 (V1 m ρ) c).arrAt 5 cfg0.N from W2_arr m ρ c 5]
  rfl

/-- The second layer's two weight matrices are as given. -/
theorem second_wself (c : Dev nD) :
    (V3 m ρ c main_arg6 : S128x64.Idx → EReal) = m ((c.tc : Thread nD τ).loc main_arg6) := by
  show StableHlo.after hostOps1 (W2 m ρ c) (Proc.devRef .tc main_arg6) = _
  after_results
  exact mid_wself m ρ c

theorem second_wneigh (c : Dev nD) :
    (V3 m ρ c main_arg7 : S128x64.Idx → EReal) = m ((c.tc : Thread nD τ).loc main_arg7) := by
  show StableHlo.after hostOps1 (W2 m ρ c) (Proc.devRef .tc main_arg7) = _
  after_results
  exact mid_wneigh m ρ c

/-- The bias row's entry `q` is the second bias's entry `q`. -/
theorem second_bias (c : Dev nD) (q : Fin 64) :
    V3 m ρ c main_v40 (ix2 (0 : Fin 1) q) = m ((c.tc : Thread nD τ).loc main_arg8) (ix1 q) := by
  have e : (V3 m ρ c main_v40 : S1x64.Idx → EReal)
      = shapeCast S1x64 (m ((c.tc : Thread nD τ).loc main_arg8)) shapeCasts_S64_S1x64 := by
    show StableHlo.after hostOps1 (W2 m ρ c) (Proc.devRef .tc main_v40) = _
    after_results
    rw [mid_bias]
    rfl
  exact (congrFun e (ix2 (0 : Fin 1) q)).trans (shapeCast_a_1a_apply _ shapeCasts_S64_S1x64 (0 : Fin 1) q)

end Cert.KernelIdeal.Layers

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.KernelPayload.lean ====
/-
  What each of the two kernel bodies stores, read at one entry of the stored block. A body holds a block of 5000
  consecutive nodes: the nodes' features x and their neighbour means nb (both 5000 × 128), the two weight matrices
  whole (128 × C), and the bias as one row (1 × C). It multiplies x and nb into the weights on the matrix unit, each
  product into a zero accumulator, adds the two products, adds the bias row to every row, and — in the hidden layer
  only — clamps at zero from below. At the exact values a change of float format is the identity and a product into
  a zero accumulator at (p, c) is Σ_k lhs(p, k) · rhs(k, c), so at row p and channel c the stored value is

      Σ_k x(p, k) · Wself(k, c) + Σ_k nb(p, k) · Wneigh(k, c) + bias(0, c)      (clamped, in the hidden layer).
-/
import proofs.«107106_j76149770158505_1_alg».proof.Proof.Gen.KernelIdeal.Skeleton
import proofs.«107106_j76149770158505_1_alg».proof.Proof.LibPlainMatmul
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-- The hidden layer's stored value at row `p`, channel `c` of the block. -/
theorem hidden_at (x0 x1 : FVec Ideal S5000x128 .f32) (x2 x3 : FVec Ideal S128x128 .f32) (x4 : FVec Ideal S1x128 .f32)
    (p : Fin 5000) (c : Fin 128) :
    k0_pay1 (F := Ideal) x0 x1 x2 x3 x4 (ix2 p c)
      = max (((∑ k : Fin 128, x0 (ix2 p k) * x2 (ix2 k c)) + ∑ k : Fin 128, x1 (ix2 p k) * x3 (ix2 k c))
          + x4 (ix2 (0 : Fin 1) c)) (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact PlainMatmul.apply_zero (M := 5000) (K := 128) (N := 128) _ _ p c
    · refine (PlainMatmul.apply_zero (M := 5000) (K := 128) (N := 128) _ _ p c).trans ?_
      exact Finset.sum_congr rfl fun k _ =>
        congrArg (· * x3 (ix2 k c)) (congrFun (shapeCast_self x1 shapeCasts_S5000x128_S5000x128) (ix2 p k))
  · exact (broadcastTo_1b_ab_apply _ broadcasts_S1x128_S5000x128 p c).trans
      (congrFun (shapeCast_self x4 shapeCasts_S1x128_S1x128) (ix2 (0 : Fin 1) c))

/-- The output layer's stored value at row `p`, channel `c` of the block. -/
theorem output_at (x0 x1 : FVec Ideal S5000x128 .f32) (x2 x3 : FVec Ideal S128x64 .f32) (x4 : FVec Ideal S1x64 .f32)
    (p : Fin 5000) (c : Fin 64) :
    k1_pay1 (F := Ideal) x0 x1 x2 x3 x4 (ix2 p c)
      = ((∑ k : Fin 128, x0 (ix2 p k) * x2 (ix2 k c)) + ∑ k : Fin 128, x1 (ix2 p k) * x3 (ix2 k c))
          + x4 (ix2 (0 : Fin 1) c) := by
  unfold k1_pay1
  refine (addf_apply _ _ _).trans ?_
  refine congrArg₂ (· + ·) ?_ ?_
  · refine (addf_apply _ _ _).trans ?_
    refine congrArg₂ (· + ·) ?_ ?_
    · refine (PlainMatmul.apply_zero (M := 5000) (K := 128) (N := 64) _ _ p c).trans ?_
      exact Finset.sum_congr rfl fun k _ =>
        congrArg (· * x2 (ix2 k c)) (congrFun (shapeCast_self x0 shapeCasts_S5000x128_S5000x128) (ix2 p k))
    · refine (PlainMatmul.apply_zero (M := 5000) (K := 128) (N := 64) _ _ p c).trans ?_
      exact Finset.sum_congr rfl fun k _ =>
        congrArg (· * x3 (ix2 k c)) (congrFun (shapeCast_self x1 shapeCasts_S5000x128_S5000x128) (ix2 p k))
  · exact (broadcastTo_1b_ab_apply _ broadcasts_S1x64_S5000x64 p c).trans
      (congrFun (shapeCast_self x4 shapeCasts_S1x64_S1x64) (ix2 (0 : Fin 1) c))

end Cert.KernelIdeal.Payload

end
-- ==== Proof.HiddenArray.lean ====
/-
  The hidden layer's array after the first launch, as one function of the arrays the launch finds. The launch walks the
  100000 nodes in 20 blocks of 5000: at step t it reads rows 5000·t … 5000·t + 4999 of the features and of the
  neighbour means, the two 128 × 128 weight matrices whole, and the bias row, and writes rows 5000·t … 5000·t + 4999
  of the result. Row p of the block written at step t is row 5000·t + p of the array, so what the step writes back is
  exactly that block of the layer's function of the whole arrays; and every node r lies in the block of step r / 5000,
  so the 20 blocks cover the array and it ends holding the layer's function everywhere.
-/
import proofs.«107106_j76149770158505_1_alg».proof.Proof.Gen.KernelIdeal.Frame
import proofs.«107106_j76149770158505_1_alg».proof.Proof.KernelPayload
import proofs.«107106_j76149770158505_1_alg».proof.Proof.SageSpec

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The hidden layer of the arrays the first launch finds: features, neighbour means, the two weight matrices, and the
    bias read off its one row. -/
abbrev hiddenOf (c : Dev nD) : S100000x128.Idx → EReal :=
  Sage.mixRelu (C := 128) (V c main_arg0) (V c main_v18) (V c main_arg3) (V c main_arg4)
    (fun q => V c main_v19 (ix2 (0 : Fin 1) q))

/-- Where each window's block sits at step `t`: the row-blocked windows move with the output's block along the nodes
    and stay at column block 0; the weights and the bias stay at block (0, 0); the output's node block is below 20. -/
theorem blocks_first : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every node block is some step's. -/
theorem blocks_first_onto : ∀ q0 : Fin 20, ∃ t : Fin cfg0.N, win0_5.index t = ![q0.val, 0] :=
  (by decide +kernel : ∀ q0 : Fin 20, ∃ t : Fin grid0.N, win0_5.index t = ![q0.val, 0])

/-- What step `t` writes back is block `t` of the hidden layer of the arrays the launch finds. -/
theorem flushed_hidden (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e51, e5⟩ := blocks_first t
  funext j
  obtain ⟨p, q, rfl⟩ : ∃ (p : Fin 5000) (q : Fin 128), j = ix2 p q := ⟨j 0, j 1, eq_ix2 j⟩
  refine (Payload.hidden_at (iblk0 V c 0 t) (iblk0 V c 1 t) (iblk0 V c 2 t) (iblk0 V c 3 t) (iblk0 V c 4 t) p q).trans ?_
  have hp : p.val < 5000 := p.isLt
  have hR : win0_5.index t (0 : Fin 2) * 5000 + p.val < 100000 := by omega
  have eo : ((cfg0.win 5).blk t).view.emb (ix2 p q) = ix2 (⟨win0_5.index t (0 : Fin 2) * 5000 + p.val, hR⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  have r0 : ∀ k : Fin 128, iblk0 V c 0 t (ix2 p k)
      = V c main_arg0 (ix2 (⟨win0_5.index t (0 : Fin 2) * 5000 + p.val, hR⟩ : Fin 100000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  have r1 : ∀ k : Fin 128, iblk0 V c 1 t (ix2 p k)
      = V c main_v18 (ix2 (⟨win0_5.index t (0 : Fin 2) * 5000 + p.val, hR⟩ : Fin 100000) k) := fun k => by
    show V c main_v18 (((cfg0.win 1).blk t).view.emb (ix2 p k)) = _
    refine congrArg (V c main_v18) ?_
    funext a; apply Fin.ext
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  have r2 : ∀ k : Fin 128, iblk0 V c 2 t (ix2 k q) = V c main_arg3 (ix2 k q) := fun k => by
    show V c main_arg3 (((cfg0.win 2).blk t).view.emb (ix2 k q)) = _
    refine congrArg (V c main_arg3) ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  have r3 : ∀ k : Fin 128, iblk0 V c 3 t (ix2 k q) = V c main_arg4 (ix2 k q) := fun k => by
    show V c main_arg4 (((cfg0.win 3).blk t).view.emb (ix2 k q)) = _
    refine congrArg (V c main_arg4) ?_
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  have r4 : iblk0 V c 4 t (ix2 (0 : Fin 1) q) = V c main_v19 (ix2 (0 : Fin 1) q) := by
    show V c main_v19 (((cfg0.win 4).blk t).view.emb (ix2 (0 : Fin 1) q)) = _
    refine congrArg (V c main_v19) ?_
    funext a; apply Fin.ext
    match a with
    | ⟨0, _⟩ => show win0_4.index t (0 : Fin 2) * 1 + 1 * 0 = 0; omega
    | ⟨1, _⟩ => show win0_4.index t (1 : Fin 2) * 128 + 1 * q.val = q.val; omega
  show _ = hiddenOf V c (((cfg0.win 5).blk t).view.emb (ix2 p q))
  rw [eo]
  refine Eq.trans ?_ (Sage.mixRelu_ix2 _ _ _ _ _ _ q).symm
  refine congrArg₂ max ?_ rfl
  unfold Sage.mixAt
  exact congrArg₂ (· + ·)
    (congrArg₂ (· + ·) (Finset.sum_congr rfl fun k _ => by rw [r0 k, r2 k])
      (Finset.sum_congr rfl fun k _ => by rw [r1 k, r3 k])) r4

/-- An index of the array is in step `t`'s block iff each coordinate is in the block's range on its axis. -/
theorem mem_block_hidden (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- Node `r` is in the block of step `r / 5000`: the written blocks cover the array. -/
theorem cover_hidden (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := blocks_first_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block_hidden]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the first launch its result array holds the hidden layer of the arrays the launch found. -/
theorem hidden_array (c : Dev nD) : (dat0 V c).arrAt 5 cfg0.N = hiddenOf V c :=
  (dat0 V c).arrAt_eq_of_cover 5 (hiddenOf V c) (fun t _ => flushed_hidden V c t) cover_hidden

end Cert.KernelIdeal.Layers

end
-- ==== Proof.OutputArray.lean ====
/-
  The output layer's array after the second launch, as one function of the arrays that launch finds. As in the first
  launch the 100000 nodes are walked in 20 blocks of 5000: step t reads rows 5000·t … 5000·t + 4999 of the hidden
  layer and of its neighbour means, the two 128 × 64 weight matrices whole, and the bias row, and writes the same rows
  of the 100000 × 64 result. What a step writes back is that block of the layer's function of the whole arrays, and node
  r lies in the block of step r / 5000, so the array ends holding the layer's function everywhere.
-/
import proofs.«107106_j76149770158505_1_alg».proof.Proof.Gen.KernelIdeal.Frame
import proofs.«107106_j76149770158505_1_alg».proof.Proof.KernelPayload
import proofs.«107106_j76149770158505_1_alg».proof.Proof.SageSpec

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_offsets : (![0, 0] : Fin 2 → Nat) = fun _ => 0 := funext fun a => by fin_cases a <;> rfl

/-- The output layer of the arrays the second launch finds: the hidden layer, its neighbour means, the two weight
    matrices, and the bias read off its one row. -/
abbrev outputOf (c : Dev nD) : S100000x64.Idx → EReal :=
  Sage.mix (C := 64) (V c main_v20) (V c main_v39) (V c main_arg6) (V c main_arg7)
    (fun q => V c main_v40 (ix2 (0 : Fin 1) q))

/-- Where each window's block sits at step `t` of the second launch: the row-blocked windows move with the output's
    block along the nodes and stay at column block 0; the weights and the bias stay at block (0, 0); the output's
    node block is below 20. -/
theorem blocks_second : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every node block is some step's. -/
theorem blocks_second_onto : ∀ q0 : Fin 20, ∃ t : Fin cfg1.N, win1_5.index t = ![q0.val, 0] :=
  (by decide +kernel : ∀ q0 : Fin 20, ∃ t : Fin grid1.N, win1_5.index t = ![q0.val, 0])

/-- What step `t` writes back is block `t` of the output layer of the arrays the launch finds. -/
theorem flushed_output (c : Dev nD) (t : Fin cfg1.N) :
    (dat1 V c).flushed 5 t = ((cfg1.win 5).blk t).view.read (Elt Ideal) (outputOf V c) := by
  show (cfg1.win 5).cut (grid1.coords t) ((dat1 V c).after 5 t) = _
  rw [after1_5]
  unfold out1_5
  rw [View.canon_unit_zero origin_offsets]
  simp only [View.ld_unit_zero (S := S5000x128) origin_offsets, View.ld_unit_zero (S := S128x64) origin_offsets,
    View.ld_unit_zero (S := S1x64) origin_offsets]
  obtain ⟨e00, e01, e10, e11, e20, e21, e30, e31, e40, e41, e51, e5⟩ := blocks_second t
  funext j
  obtain ⟨p, q, rfl⟩ : ∃ (p : Fin 5000) (q : Fin 64), j = ix2 p q := ⟨j 0, j 1, eq_ix2 j⟩
  refine (Payload.output_at (iblk1 V c 0 t) (iblk1 V c 1 t) (iblk1 V c 2 t) (iblk1 V c 3 t) (iblk1 V c 4 t) p q).trans ?_
  have hp : p.val < 5000 := p.isLt
  have hR : win1_5.index t (0 : Fin 2) * 5000 + p.val < 100000 := by omega
  have eo : ((cfg1.win 5).blk t).view.emb (ix2 p q) = ix2 (⟨win1_5.index t (0 : Fin 2) * 5000 + p.val, hR⟩ : Fin 100000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 64 + 1 * q.val = q.val; omega
  have r0 : ∀ k : Fin 128, iblk1 V c 0 t (ix2 p k)
      = V c main_v20 (ix2 (⟨win1_5.index t (0 : Fin 2) * 5000 + p.val, hR⟩ : Fin 100000) k) := fun k => by
    show V c main_v20 (((cfg1.win 0).blk t).view.emb (ix2 p k)) = _
    refine congrArg (V c main_v20) ?_
    funext a; apply Fin.ext
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  have r1 : ∀ k : Fin 128, iblk1 V c 1 t (ix2 p k)
      = V c main_v39 (ix2 (⟨win1_5.index t (0 : Fin 2) * 5000 + p.val, hR⟩ : Fin 100000) k) := fun k => by
    show V c main_v39 (((cfg1.win 1).blk t).view.emb (ix2 p k)) = _
    refine congrArg (V c main_v39) ?_
    funext a; apply Fin.ext
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega
  have r2 : ∀ k : Fin 128, iblk1 V c 2 t (ix2 k q) = V c main_arg6 (ix2 k q) := fun k => by
    show V c main_arg6 (((cfg1.win 2).blk t).view.emb (ix2 k q)) = _
    refine congrArg (V c main_arg6) ?_
    funext a; apply Fin.ext
    match a with
    | ⟨0, _⟩ => show win1_2.index t (0 : Fin 2) * 128 + 1 * k.val = k.val; omega
    | ⟨1, _⟩ => show win1_2.index t (1 : Fin 2) * 64 + 1 * q.val = q.val; omega
  have r3 : ∀ k : Fin 128, iblk1 V c 3 t (ix2 k q) = V c main_arg7 (ix2 k q) := fun k => by
    show V c main_arg7 (((cfg1.win 3).blk t).view.emb (ix2 k q)) = _
    refine congrArg (V c main_arg7) ?_
    funext a; apply Fin.ext
    match a with
    | ⟨0, _⟩ => show win1_3.index t (0 : Fin 2) * 128 + 1 * k.val = k.val; omega
    | ⟨1, _⟩ => show win1_3.index t (1 : Fin 2) * 64 + 1 * q.val = q.val; omega
  have r4 : iblk1 V c 4 t (ix2 (0 : Fin 1) q) = V c main_v40 (ix2 (0 : Fin 1) q) := by
    show V c main_v40 (((cfg1.win 4).blk t).view.emb (ix2 (0 : Fin 1) q)) = _
    refine congrArg (V c main_v40) ?_
    funext a; apply Fin.ext
    match a with
    | ⟨0, _⟩ => show win1_4.index t (0 : Fin 2) * 1 + 1 * 0 = 0; omega
    | ⟨1, _⟩ => show win1_4.index t (1 : Fin 2) * 64 + 1 * q.val = q.val; omega
  show _ = outputOf V c (((cfg1.win 5).blk t).view.emb (ix2 p q))
  rw [eo]
  refine Eq.trans ?_ (Sage.mix_ix2 _ _ _ _ _ _ q).symm
  unfold Sage.mixAt
  exact congrArg₂ (· + ·)
    (congrArg₂ (· + ·) (Finset.sum_congr rfl fun k _ => by rw [r0 k, r2 k])
      (Finset.sum_congr rfl fun k _ => by rw [r1 k, r3 k])) r4

/-- An index of the array is in step `t`'s block iff each coordinate is in the block's range on its axis. -/
theorem mem_block_output (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- Node `r` is in the block of step `r / 5000`: the written blocks cover the array. -/
theorem cover_output (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := blocks_second_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block_output]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the second launch its result array holds the output layer of the arrays the launch found. -/
theorem output_array (c : Dev nD) : (dat1 V c).arrAt 5 cfg1.N = outputOf V c :=
  (dat1 V c).arrAt_eq_of_cover 5 (outputOf V c) (fun t _ => flushed_output V c t) cover_output

end Cert.KernelIdeal.Layers

end
-- ==== Proof.KernelValue.lean ====
/-
  The kernel program's result as a function of its arguments. The first launch leaves the hidden layer of what it finds,
  and it finds the features, their neighbour means and the first weights and bias: so its result is the hidden layer h of
  the arguments. The second launch leaves the output layer of what it finds, and it finds h, the neighbour means of h
  along the same edges, and the second weights and bias: so the program's result is the output layer of h.
-/
import proofs.«107106_j76149770158505_1_alg».proof.Proof.KernelRun
import proofs.«107106_j76149770158505_1_alg».proof.Proof.FirstEntry
import proofs.«107106_j76149770158505_1_alg».proof.Proof.SecondEntry
import proofs.«107106_j76149770158505_1_alg».proof.Proof.HiddenArray
import proofs.«107106_j76149770158505_1_alg».proof.Proof.OutputArray

noncomputable section

namespace Cert.KernelIdeal.Layers

open Idealize.ShloMosaic Idealize.ShloMosaic.TcCoe Idealize.ShloMosaic.ValueIdx Idealize.SL.Sem
open Cert.KernelIdeal Cert.KernelIdeal.Gen
open Cert.ReferenceIdeal.Layers (neighbourMeans)

variable (m : (ℓ : Loc nD τ sig) → Buf (Elt Ideal) ℓ) (ρ : Dev nD → PrngReg)

/-- The hidden layer of the arguments: of the features, their neighbour means, the first weights and the first bias. -/
def hiddenArg (c : Dev nD) : S100000x128.Idx → EReal :=
  Sage.mixRelu (C := 128) (m ((c.tc : Thread nD τ).loc main_arg0))
    (neighbourMeans (m ((c.tc : Thread nD τ).loc main_arg0)) (m ((c.tc : Thread nD τ).loc main_arg1))
      (m ((c.tc : Thread nD τ).loc main_arg2)))
    (m ((c.tc : Thread nD τ).loc main_arg3)) (m ((c.tc : Thread nD τ).loc main_arg4))
    (fun q => m ((c.tc : Thread nD τ).loc main_arg5) (ix1 q))

/-- The output layer of the hidden layer: of it, its neighbour means, the second weights and the second bias. -/
def resultArg (c : Dev nD) : S100000x64.Idx → EReal :=
  Sage.mix (C := 64) (hiddenArg m c)
    (neighbourMeans (hiddenArg m c) (m ((c.tc : Thread nD τ).loc main_arg1)) (m ((c.tc : Thread nD τ).loc main_arg2)))
    (m ((c.tc : Thread nD τ).loc main_arg6)) (m ((c.tc : Thread nD τ).loc main_arg7))
    (fun q => m ((c.tc : Thread nD τ).loc main_arg8) (ix1 q))

/-- After the first launch its result array holds the hidden layer of the arguments. -/
theorem hidden_value (c : Dev nD) : (dat0 (V1 m ρ) c).arrAt 5 cfg0.N = hiddenArg m c := by
  rw [hidden_array (V1 m ρ) c]
  have hb : (fun q : Fin 128 => V1 m ρ c main_v19 (ix2 (0 : Fin 1) q))
      = fun q => m ((c.tc : Thread nD τ).loc main_arg5) (ix1 q) := funext (first_bias m ρ c)
  show Sage.mixRelu (C := 128) (V1 m ρ c main_arg0) (V1 m ρ c main_v18) (V1 m ρ c main_arg3) (V1 m ρ c main_arg4)
    (fun q => V1 m ρ c main_v19 (ix2 (0 : Fin 1) q)) = _
  rw [first_features m ρ c, first_means m ρ c, first_wself m ρ c, first_wneigh m ρ c, hb]
  rfl

/-- After the second launch the program's result array holds the output layer of the hidden layer of the arguments. -/
theorem result_value (c : Dev nD) : W4 m ρ c (Proc.devRef .tc main_v41) = resultArg m c := by
  rw [show W4 m ρ c (Proc.devRef .tc main_v41) = (dat1 (V3 m ρ) c).arrAt 5 cfg1.N from W4_arr m ρ c 5,
    output_array (V3 m ρ) c]
  have hb : (fun q : Fin 64 => V3 m ρ c main_v40 (ix2 (0 : Fin 1) q))
      = fun q => m ((c.tc : Thread nD τ).loc main_arg8) (ix1 q) := funext (second_bias m ρ c)
  show Sage.mix (C := 64) (V3 m ρ c main_v20) (V3 m ρ c main_v39) (V3 m ρ c main_arg6) (V3 m ρ c main_arg7)
    (fun q => V3 m ρ c main_v40 (ix2 (0 : Fin 1) q)) = _
  rw [second_hidden m ρ c, second_means m ρ c, second_wself m ρ c, second_wneigh m ρ c, hb, hidden_value m ρ c]
  rfl

/-- The program's run: the result array ends at the output layer of the hidden layer of the arguments, the arguments
    unchanged. -/
theorem run : θ_run defs (onTc (τ := τ) (main (F := Ideal))) ⟨m, fun _ => 0, ρ⟩ (fun r => ∀ c : Dev nD,
      r.2.mem ((c.tc : Thread nD τ).loc main_v41) = resultArg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_value m ρ c), (h c).2⟩) (run_result (F := Ideal) m ρ)

end Cert.KernelIdeal.Layers

end
-- ==== Proof.lean ====
/-
  Two layers of a graph convolution over 100000 nodes and 1600000 edges: each layer mixes a node's features with the mean
  of its neighbours' features, out(r, c) = Σ_k x(r,k)·Wself(k,c) + Σ_k nb(r,k)·Wneigh(k,c) + bias(c), the hidden layer
  clamped at zero from below. Both programs compute the neighbour means nb by the same operations on the host (gather
  the sources' rows, add them up by destination, divide by the in-degree or by one); the kernel then forms each layer on
  the matrix unit in 20 blocks of 5000 nodes, the reference as two whole matrix products. At the exact values both results
  are the output layer of the hidden layer of the arguments, with the neighbour means the same function on both sides:
  a matrix product into a zero accumulator and the host's product are the same sum over the 128 input channels, a row
  block of a product is the product of the row block, and no law beyond that is used — so no finiteness is needed, and
  the precondition is never opened. The kernel was printed with no rewrite, so its idealization has nothing to preserve.
-/
import proofs.«107106_j76149770158505_1_alg».proof.Defs
import proofs.«107106_j76149770158505_1_alg».proof.Proof.Gen.Kernel
import proofs.«107106_j76149770158505_1_alg».proof.Proof.Gen.Kernel.Skeleton
import proofs.«107106_j76149770158505_1_alg».proof.Proof.Gen.Kernel.Launch
import proofs.«107106_j76149770158505_1_alg».proof.Proof.Gen.Kernel.Points
import proofs.«107106_j76149770158505_1_alg».proof.Proof.Gen.Kernel.Frame
import proofs.«107106_j76149770158505_1_alg».proof.Proof.Gen.KernelIdeal
import proofs.«107106_j76149770158505_1_alg».proof.Proof.Gen.KernelIdeal.Skeleton
import proofs.«107106_j76149770158505_1_alg».proof.Proof.Gen.KernelIdeal.Launch
import proofs.«107106_j76149770158505_1_alg».proof.Proof.Gen.KernelIdeal.Points
import proofs.«107106_j76149770158505_1_alg».proof.Proof.Gen.KernelIdeal.Frame
import proofs.«107106_j76149770158505_1_alg».proof.Proof.Gen.ReferenceIdeal
import proofs.«107106_j76149770158505_1_alg».proof.Proof.Gen.ReferenceIdeal.Run
import proofs.«107106_j76149770158505_1_alg».proof.Proof.Gen.ReferenceIdeal.Read
import proofs.«107106_j76149770158505_1_alg».proof.Proof.Gen.Pre_finite_inputs
import proofs.«107106_j76149770158505_1_alg».proof.Proof.KernelValue
import proofs.«107106_j76149770158505_1_alg».proof.Proof.ReferenceLayers
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The kernel at the exact values runs and keeps its arguments. -/
theorem frame_kernel_ideal : Cert.frame_KernelIdeal := fun m ρ _ => Cert.KernelIdeal.Gen.frame m ρ

/-- The reference at the exact values runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was printed for the exact values. -/
theorem preserves : Cert.preserves_Kernel_KernelIdeal := trivial

/-- From memories that agree on the arguments both programs end with the output layer of the hidden layer of those
    arguments: the kernel by its two launches, the reference by its two pairs of whole matrix products. -/
theorem algebraic : Cert.algebraic_KernelIdeal_ReferenceIdeal := by
  intro m ρ m' ρ' _ hagree
  refine ⟨fun c => Cert.KernelIdeal.Layers.resultArg m c, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v50_eq, Cert.ReferenceIdeal.Layers.output_eq, Cert.ReferenceIdeal.Layers.hidden_eq,
    a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
